-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x1024 : Shape := ⟨3, ![16384, 1, 1024]⟩
abbrev S4x1024 : Shape := ⟨2, ![4, 1024]⟩
abbrev S_ : Shape := ⟨0, ![]⟩

class Facts : Prop where
  bcast_S_S16384x1x1024 : S_.BroadcastsInDim S16384x1x1024 (![] : Fin 0 → Fin S16384x1x1024.rank)
  reducesTo_S16384x1x1024_S_d0_1_2 : S16384x1x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S16384x1x1024 .f32) (main_arg1 : FVec F S4x1024 .f32) (main_arg2 : FVec F S4x1024 .f32) : IVec S_ 1 :=
  let main_v0 : FVec F S16384x1x1024 .f32 := Host.absf main_arg0
  let main_cst : FVec F S_ .f32 := constant S_ .f32 0x7F800000#32
  let main_v1 : FVec F S16384x1x1024 .f32 := broadcastInDim S16384x1x1024 ![] bcast_S_S16384x1x1024 main_cst
  let main_v2 : IVec S16384x1x1024 1 := cmpf .olt main_v0 main_v1
  let main_c : IVec S_ 1 := constantI S_ 1 1#1
  let main_v3 : IVec S_ 1 := (fun x v => Host.reduce IntOp.andi x v reducesTo_S16384x1x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S16384x1x1024 : Shape := ⟨3, ![16384, 1, 1024]⟩
abbrev S4x1024 : Shape := ⟨2, ![4, 1024]⟩
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1x1024, .f32⟩
  | .hbm, ⟨1, _⟩ => ⟨S4x1024, .f32⟩
  | .hbm, ⟨2, _⟩ => ⟨S4x1024, .f32⟩
  | .hbm, ⟨3, _⟩ => ⟨S16384x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024, .f32⟩
  | .local _ .vmem, ⟨3, _⟩ => ⟨S4x1024, .f32⟩
  | .local _ .vmem, ⟨4, _⟩ => ⟨S1024x1024, .f32⟩
  | .local _ .vmem, ⟨5, _⟩ => ⟨S1024x1024, .f32⟩
  | _, _ => ⟨S16384x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x1x1024_S16384x1024 : S16384x1x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  reduces_S1x1024_S1 : S1x1024.Reduces [1] S1
  shapeCasts_S1_S1x1 : S1.ShapeCasts S1x1
  inpos_S1x1_p0_0 : ∀ a, (![0, 0] : Fin 2 → Nat) a < S1x1.size a
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x1024.size a
  hwx0_1 : ∀ i : grid0.Coords, EltTy.bits .f32 = 32 ∨ (Rect.block (s := S4x1024) S4x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1x1024 : Shape := ⟨3, ![16384, 1, 1024]⟩
abbrev S4x1024 : Shape := ⟨2, ![4, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1x1024, .f32⟩
  | .hbm, ⟨1, _⟩ => ⟨S4x1024, .f32⟩
  | .hbm, ⟨2, _⟩ => ⟨S4x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S16384x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩

abbrev nD : Nat := 1
abbrev τ : Topo := Topo.v7x

variable {F : FTy → Type} [FloatOps F]

class Facts₀ : Prop where
  shapeCasts_S16384x1x1024_S16384x1024 : S16384x1x1024.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  slices_S4x1024_S1x1024_1_0 : S4x1024.Slices ![1, 0] S1x1024
  slices_S4x1024_S1x1024_2_0 : S4x1024.Slices ![2, 0] S1x1024
  slices_S4x1024_S1x1024_3_0 : S4x1024.Slices ![3, 0] S1x1024

variable [Facts₀]

class Facts : Prop extends Facts₀ where

variable [Facts]
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.Law.lean ====
/-
  The cross layer, one row at a time, over the extended reals.

  A row x of the input passes through four layers.  Layer l, with weight row w and bias row b, sends the current
  row cur to  s · (w ⊙ x) + b + x  where s is the sum of cur's entries.  Only the sum of a layer's output is ever
  read by the next layer, and that sum is  s · Σ (w ⊙ x) + Σ b + Σ x  — by distributing s over the sum — so the
  whole stack can be run on three scalars per row and the last layer alone applied entry by entry.  Distributing a
  factor over a sum is a law of the reals, not of the extended reals (it fails at the infinities), so it is stated
  here for entries that are real numbers.
-/
import proofs.«127909_j20693152432611_2_alg».proof.Proof.LibRealValued
import Mathlib.Algebra.BigOperators.Ring.Finset

noncomputable section

namespace Cert.CrossLayer

open Cert.RealValued

variable {ι : Type} [Fintype ι]

/-- One layer applied entry by entry: the running row sum `s` times the weighted input, plus the bias, plus the input. -/
def layer (s : EReal) (w b x : ι → EReal) (j : ι) : EReal := s * (w j * x j) + b j + x j

/-- The sum of a layer's output, computed from the running row sum and three sums over the row. -/
def nextSum (s : EReal) (w b x : ι → EReal) : EReal := s * (∑ j, w j * x j) + (∑ j, b j) + ∑ j, x j

/-- For real entries the sum of a layer's output is `nextSum`: the factor `s` distributes over the sum. -/
theorem sum_layer {s : EReal} {w b x : ι → EReal} (hs : IsReal s) (hw : ∀ j, IsReal (w j)) (hb : ∀ j, IsReal (b j))
    (hx : ∀ j, IsReal (x j)) : ∑ j, layer s w b x j = nextSum s w b x := by
  obtain ⟨s', rfl⟩ := hs
  choose w' hw' using hw
  choose b' hb' using hb
  choose x' hx' using hx
  obtain rfl : w = fun j => (w' j : EReal) := funext hw'
  obtain rfl : b = fun j => (b' j : EReal) := funext hb'
  obtain rfl : x = fun j => (x' j : EReal) := funext hx'
  unfold layer nextSum
  simp only [← EReal.coe_mul, ← EReal.coe_add, ← coe_sum]
  rw [Finset.sum_add_distrib, Finset.sum_add_distrib, Finset.mul_sum]

/-- `nextSum` of real entries is real. -/
theorem isReal_nextSum {s : EReal} {w b x : ι → EReal} (hs : IsReal s) (hw : ∀ j, IsReal (w j)) (hb : ∀ j, IsReal (b j))
    (hx : ∀ j, IsReal (x j)) : IsReal (nextSum s w b x) :=
  ((hs.mul (isReal_sum _ _ fun j _ => (hw j).mul (hx j))).add (isReal_sum _ _ fun j _ => hb j)).add
    (isReal_sum _ _ fun j _ => hx j)

/-- The four layers as written: each layer's whole output row is formed and summed for the next. -/
def stackRows (W B : Fin 4 → ι → EReal) (x : ι → EReal) : ι → EReal :=
  layer (∑ j, layer (∑ j, layer (∑ j, layer (∑ j, x j) (W 0) (B 0) x j) (W 1) (B 1) x j) (W 2) (B 2) x j) (W 3) (B 3) x

/-- The four layers on scalars: three row sums carried forward, the last layer alone applied entry by entry. -/
def stackSums (W B : Fin 4 → ι → EReal) (x : ι → EReal) : ι → EReal :=
  layer (nextSum (nextSum (nextSum (∑ j, x j) (W 0) (B 0) x) (W 1) (B 1) x) (W 2) (B 2) x) (W 3) (B 3) x

/-- THE LAW: on real entries the two ways of running the stack agree. -/
theorem stackRows_eq_stackSums {W B : Fin 4 → ι → EReal} {x : ι → EReal} (hW : ∀ l j, IsReal (W l j))
    (hB : ∀ l j, IsReal (B l j)) (hx : ∀ j, IsReal (x j)) : stackRows W B x = stackSums W B x := by
  have h0 : IsReal (∑ j, x j) := isReal_sum _ _ fun j _ => hx j
  have h1 := isReal_nextSum h0 (hW 0) (hB 0) hx
  have h2 := isReal_nextSum h1 (hW 1) (hB 1) hx
  unfold stackRows stackSums
  rw [sum_layer h0 (hW 0) (hB 0) hx, sum_layer h1 (hW 1) (hB 1) hx, sum_layer h2 (hW 2) (hB 2) hx]

end Cert.CrossLayer

end
-- ==== Proof.Spec.lean ====
/-
  The result array as one function of the flattened input X : [16384, 1024] and the weight and bias matrices
  W, B : [4, 1024]: entry (p, q) is the stack of four layers on row p of X with the rows of W and B, at column q.
  The stack can be run either way (on whole rows, or on scalars); on real entries the two arrays are equal.
-/
import proofs.«127909_j20693152432611_2_alg».proof.Proof.Law
import Idealize.ShloMosaic.Lib.ValueIdx

noncomputable section

namespace Cert.CrossLayer

open Idealize.ShloMosaic Idealize.ShloMosaic.ValueIdx Cert.RealValued

/-- A row function `f` (the stack of layers, run one way or the other) applied to every row of `X`. -/
def onRows (f : (Fin 4 → Fin 1024 → EReal) → (Fin 4 → Fin 1024 → EReal) → (Fin 1024 → EReal) → Fin 1024 → EReal)
    (X : (⟨2, ![16384, 1024]⟩ : Shape).Idx → EReal) (W B : (⟨2, ![4, 1024]⟩ : Shape).Idx → EReal) :
    (⟨2, ![16384, 1024]⟩ : Shape).Idx → EReal :=
  fun i => f (fun l k => W (ix2 l k)) (fun l k => B (ix2 l k)) (fun k => X (ix2 (i 0) k)) (i 1)

/-- At an index with coordinates `p`, `q`. -/
theorem onRows_apply (f : (Fin 4 → Fin 1024 → EReal) → (Fin 4 → Fin 1024 → EReal) → (Fin 1024 → EReal) → Fin 1024 → EReal)
    (X : (⟨2, ![16384, 1024]⟩ : Shape).Idx → EReal) (W B : (⟨2, ![4, 1024]⟩ : Shape).Idx → EReal)
    (i : (⟨2, ![16384, 1024]⟩ : Shape).Idx) (p : Fin 16384) (q : Fin 1024) (h0 : (i 0).val = p.val) (h1 : (i 1).val = q.val) :
    onRows f X W B i = f (fun l k => W (ix2 l k)) (fun l k => B (ix2 l k)) (fun k => X (ix2 p k)) q := by
  obtain rfl : i = ix2 p q := funext fun a => Fin.ext (by
    match a with
    | ⟨0, _⟩ => exact h0
    | ⟨1, _⟩ => exact h1)
  rfl

/-- On real entries the stack run on whole rows and the stack run on scalars give one array. -/
theorem onRows_law {X : (⟨2, ![16384, 1024]⟩ : Shape).Idx → EReal} {W B : (⟨2, ![4, 1024]⟩ : Shape).Idx → EReal}
    (hX : ∀ i, IsReal (X i)) (hW : ∀ i, IsReal (W i)) (hB : ∀ i, IsReal (B i)) :
    onRows stackRows X W B = onRows stackSums X W B :=
  funext fun i => congrFun (stackRows_eq_stackSums (fun _ _ => hW _) (fun _ _ => hB _) (fun _ => hX _)) (i 1)

end Cert.CrossLayer

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  The vector-unit operations a row-wise kernel body is made of, read at an index, at any sizes: the sum along the
  rows of a matrix, the grand total of a one-row matrix taken out as a scalar, and the row of a matrix that a
  unit-stride rectangle of one row loads.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import proofs.«127909_j20693152432611_2_alg».proof.Proof.LibColumn

noncomputable section

namespace Cert.LibRowOps

open Idealize.ShloMosaic Idealize.ShloMosaic.ValueIdx

/-- The sum along axis 1 of an `[a, b]` matrix from a zero accumulator, read at row `p`: the sum of the row's entries. -/
theorem rowSums_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  show ∑ k : Fin b, v (h.lift (ix1 p) k) = _
  refine Finset.sum_congr rfl fun k _ => congrArg v ?_
  funext d
  match d with
  | ⟨0, _⟩ => rfl
  | ⟨1, _⟩ => rfl

/-- The same sum kept as a column `[a, 1]`, read at `(p, u)`. -/
theorem rowSums_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩ v 0x00000000#32 h hφ hacc) hc (ix2 p u)
      = ∑ k : Fin b, v (ix2 p k) :=
  (Cert.LibColumn.shapeCast_a_a1_apply _ hc p u).trans (rowSums_apply v h hφ hacc p)

/-- The grand total of a one-row matrix `[1, b]`: summed along its row into `[1]`, cast to `[1, 1]` and taken out
    as a scalar, it is the sum of the row's entries. -/
theorem rowTotal_extract {b : ℕ} (u : FVec Ideal ⟨2, ![1, b]⟩ .f32)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ u 0x00000000#32 h hφ hacc) hc) hp
      = ∑ k : Fin b, u (ix2 (0 : Fin 1) k) := by
  have e : (fun a => ⟨(![0, 0] : Fin 2 → Nat) a, hp a⟩ : (⟨2, ![1, 1]⟩ : Shape).Idx) = ix2 (0 : Fin 1) (0 : Fin 1) :=
    funext fun d => match d with | ⟨0, _⟩ => rfl | ⟨1, _⟩ => rfl
  unfold extractAt
  rw [e]
  exact rowSums_column_apply u h hφ hacc hc 0 0

/-- What the unit-stride rectangle at `(l, 0)` of extent `[1, b]` loads of an `[n, b]` matrix: its row `l`. -/
theorem ld_row_eq {Val : EltTy → Type} {e : EltTy} {n b : ℕ} (x : (⟨2, ![n, b]⟩ : Shape).Idx → Val e) (l : ℕ)
    (inb : ∀ a, (![l, 0] : Fin 2 → Nat) a + (![1, b] : Fin 2 → Nat) a ≤ (⟨2, ![n, b]⟩ : Shape).size a) :
    View.ld x (Rect.unit (s := ⟨2, ![n, b]⟩) ![l, 0] ![1, b] inb)
      = fun i => x (ix2 (⟨l, Nat.lt_of_succ_le (inb 0)⟩ : Fin n) (⟨(i 1).val, (i 1).isLt⟩ : Fin b)) := by
  funext i
  show x ((Rect.unit (s := ⟨2, ![n, b]⟩) ![l, 0] ![1, b] inb).idx i) = _
  refine congrArg x (funext fun d => ?_)
  have h0 : (i 0).val < 1 := (i 0).isLt
  match d with
  | ⟨0, _⟩ => exact Fin.ext (by show l + 1 * (i 0).val = l; omega)
  | ⟨1, _⟩ => exact Fin.ext (by show 0 + 1 * (i 1).val = (i 1).val; omega)

/-- A vector `w` laid along every row of an `[a, b]` matrix `x`, multiplied into it entry by entry and summed along
    the rows, kept as a column: entry `(p, u)` is  Σ_k w k · x (p, k). -/
theorem weightedRowSums_column_apply {a b : ℕ} (w : FVec Ideal ⟨1, ![b]⟩ .f32) (x : FVec Ideal ⟨2, ![a, b]⟩ .f32)
    (h1 : (⟨1, ![b]⟩ : Shape).ShapeCasts ⟨2, ![1, b]⟩) (h2 : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩
        (mulf (broadcastTo ⟨2, ![a, b]⟩ (shapeCast ⟨2, ![1, b]⟩ w h1) h2) x) 0x00000000#32 h hφ hacc) hc (ix2 p u)
      = ∑ k : Fin b, w (ix1 k) * x (ix2 p k) := by
  refine (rowSums_column_apply _ h hφ hacc hc p u).trans (Finset.sum_congr rfl fun k _ => ?_)
  show broadcastTo ⟨2, ![a, b]⟩ (shapeCast ⟨2, ![1, b]⟩ w h1) h2 (ix2 p k) * x (ix2 p k) = _
  rw [broadcastTo_1b_ab_apply, shapeCast_a_1a_apply]

/-- The grand total of a vector: laid out as one row, summed, cast to `[1, 1]` and taken out as a scalar. -/
theorem vecTotal_extract {b : ℕ} (v : FVec Ideal ⟨1, ![b]⟩ .f32) (h1 : (⟨1, ![b]⟩ : Shape).ShapeCasts ⟨2, ![1, b]⟩)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩
        (multiReduction .add [1] ⟨1, ![1]⟩ (shapeCast ⟨2, ![1, b]⟩ v h1) 0x00000000#32 h hφ hacc) hc) hp
      = ∑ k : Fin b, v (ix1 k) := by
  refine (rowTotal_extract _ h hφ hacc hc hp).trans (Finset.sum_congr rfl fun k _ => ?_)
  exact shapeCast_a_1a_apply v h1 0 k

end Cert.LibRowOps

end
-- ==== Proof.BodyRows.lean ====
/-
  The kernel body's arithmetic, one entry at a time.

  A block is 1024 rows of the input.  For a row x the body forms the row sum  c = Σ x, then three times over
  s ← s · Σ (w_l ⊙ x) + Σ b_l + c  starting from s = c (w_l and b_l the l-th rows of the weight and bias matrices),
  and stores  s · (w_3 ⊙ x) + b_3 + x.  Entry (p, q) of the stored block is therefore the stack of four layers run on
  scalars, for row p, at column q.
-/
import proofs.«127909_j20693152432611_2_alg».proof.Proof.Gen.KernelIdeal.Skeleton
import proofs.«127909_j20693152432611_2_alg».proof.Proof.LibRowOps
import proofs.«127909_j20693152432611_2_alg».proof.Proof.LibColumn
import proofs.«127909_j20693152432611_2_alg».proof.Proof.Law

noncomputable section

namespace Cert.KernelIdeal.Body

open Cert.KernelIdeal Cert.KernelIdeal.Gen Idealize.ShloMosaic Idealize.ShloMosaic.ValueIdx
open Cert.CrossLayer Cert.LibRowOps Cert.LibColumn

/-- The block as loaded. -/
theorem pay2_eq (v0 : Vec Ideal S1024x1024 .f32) : k0_pay2 (F := Ideal) v0 = v0 := by
  unfold k0_pay2
  exact shapeCast_self v0 _

/-- The column of row sums: entry `(p, u)` is the sum of row `p`. -/
theorem pay3_apply (v0 : Vec Ideal S1024x1024 .f32) (p : Fin 1024) (u : Fin 1) :
    k0_pay3 (F := Ideal) v0 (ix2 p u) = ∑ k : Fin 1024, v0 (ix2 p k) := by
  unfold k0_pay3
  rw [pay2_eq]
  exact rowSums_column_apply v0 _ _ _ _ p u

/-- A loaded one-row matrix flattened to a vector. -/
theorem pay5_apply (v38 : Vec Ideal S1x1024 .f32) (k : Fin 1024) : k0_pay5 (F := Ideal) v38 (ix1 k) = v38 (ix2 (0 : Fin 1) k) := by
  unfold k0_pay5
  exact shapeCast_1a_a_apply v38 _ k

/-- The row sum after two layers, as a column: from  s = Σ x  twice over  s ← s · Σ (w ⊙ x) + Σ b + Σ x, with the
    first two rows of the weight and bias matrices as loaded. -/
theorem pay4_apply (v0 : Vec Ideal S1024x1024 .f32) (v4 v6 v21 v23 : Vec Ideal S1x1024 .f32) (p : Fin 1024) (u : Fin 1) :
    k0_pay4 (F := Ideal) v0 v4 v6 v21 v23 (ix2 p u)
      = nextSum (nextSum (∑ k : Fin 1024, v0 (ix2 p k)) (fun k => v4 (ix2 (0 : Fin 1) k)) (fun k => v6 (ix2 (0 : Fin 1) k))
            (fun k => v0 (ix2 p k)))
          (fun k => v21 (ix2 (0 : Fin 1) k)) (fun k => v23 (ix2 (0 : Fin 1) k)) (fun k => v0 (ix2 p k)) := by
  unfold k0_pay4 nextSum
  simp only [addf_apply, mulf_apply, broadcast_apply, pay3_apply, pay2_eq]
  rw [weightedRowSums_column_apply, weightedRowSums_column_apply, vecTotal_extract, vecTotal_extract]
  simp only [shapeCast_1a_a_apply]

/-- The stored block at `(p, q)`: one more step of the row sum from the carried column `v37` (with the row sums
    `v3`, the third weight row `v39` as a vector and the third bias row `v40` as loaded), then the last layer at
    column `q` with the fourth rows `v55`, `v57`. -/
theorem pay1_apply (v1 : FVec Ideal S1024x1024 .f32) (v3 v37 : FVec Ideal S1024x1 .f32) (v39 : FVec Ideal S1024 .f32)
    (v40 v55 v57 : Vec Ideal S1x1024 .f32) (p q : Fin 1024) :
    k0_pay1 (F := Ideal) v1 v3 v37 v39 v40 v55 v57 (ix2 p q)
      = layer (v37 (ix2 p (0 : Fin 1)) * (∑ k : Fin 1024, v39 (ix1 k) * v1 (ix2 p k))
            + (∑ k : Fin 1024, v40 (ix2 (0 : Fin 1) k)) + v3 (ix2 p (0 : Fin 1)))
          (fun k => v55 (ix2 (0 : Fin 1) k)) (fun k => v57 (ix2 (0 : Fin 1) k)) (fun k => v1 (ix2 p k)) q := by
  unfold k0_pay1 layer
  simp only [addf_apply, mulf_apply, broadcast_apply, broadcastTo_a1_ab_apply, broadcastTo_1b_ab_apply,
    shapeCast_a_1a_apply, shapeCast_1a_a_apply]
  rw [weightedRowSums_column_apply, vecTotal_extract]
  simp only [shapeCast_1a_a_apply]

end Cert.KernelIdeal.Body

end
-- ==== Proof.KernelValue.lean ====
/-
  The kernel's result array.

  The grid has 16 points; point t stages rows 1024·t … 1024·t + 1023 of the flattened input (and the whole weight and
  bias matrices) and writes back the same rows of the result.  The body's stored block is, entry by entry, the stack
  of four layers run on scalars for the block's row (BodyRows), so what point t writes back is block t of ONE array —
  the stack applied to every row of the flattened input — and the 16 blocks tile the result array.
-/
import proofs.«127909_j20693152432611_2_alg».proof.Proof.Gen.KernelIdeal.Value
import proofs.«127909_j20693152432611_2_alg».proof.Proof.BodyRows
import proofs.«127909_j20693152432611_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body
open Idealize.ShloMosaic.ValueIdx Cert.CrossLayer Cert.LibRowOps

variable (m : (ℓ : Loc nD τ sig) → Buf (Elt Ideal) ℓ) (ρ : Dev nD → PrngReg)

theorem hz : (![0, 0] : Fin 2 → Nat) = fun _ => 0 :=
  funext fun a => match a with | ⟨0, _⟩ => rfl | ⟨1, _⟩ => rfl

/-- THE BODY AT AN ENTRY: from a block `x0` of 1024 rows and the two matrices, entry `(p, q)` of what the body
    leaves in the output's buffer is the stack run on scalars for row `p`, at column `q`. -/
theorem out_apply (x0 : Vec Ideal S1024x1024 .f32) (x1 x2 : Vec Ideal S4x1024 .f32) (p q : Fin 1024) :
    out0_3 (F := Ideal) x0 x1 x2 (ix2 p q)
      = stackSums (fun l k => x1 (ix2 l k)) (fun l k => x2 (ix2 l k)) (fun k => x0 (ix2 p k)) q := by
  unfold out0_3
  rw [View.canon_unit_zero hz]
  simp only [View.ld_unit_zero (S := S1024x1024) hz]
  rw [ld_row_eq x1 0, ld_row_eq x2 0, ld_row_eq x1 1, ld_row_eq x2 1, ld_row_eq x1 2, ld_row_eq x2 2,
    ld_row_eq x1 3, ld_row_eq x2 3, pay1_apply]
  simp only [pay3_apply, pay4_apply, pay5_apply, pay2_eq]
  rfl

/-! ## The arrays the region finds -/

/-- The one host operation before the region flattens the input `[16384, 1, 1024]` to `[16384, 1024]`. -/
theorem V_main_v0 (c : Dev nD) :
    (V m c main_v0 : S16384x1024.Idx → EReal)
      = shapeCast S16384x1024 (m ((c : Thread nD τ).loc main_arg0)) shapeCasts_S16384x1x1024_S16384x1024 := by
  dsimp only [Gen.V, Gen.hostOps0]
  after_results
  rfl

/-! ## The blocks -/

/-- The printed index maps over the 16 grid points: the input block and the output block of point `t` are both the
    `t`-th block of rows, and the two matrices are staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the input block at point `t` is entry `(1024 t + p, k)` of the flattened input. -/
theorem blk0_apply (c : Dev nD) (t : Fin cfg0.N) (p k : Fin 1024) (i : S16384x1024.Idx)
    (h0 : (i 0).val = t.val * 1024 + p.val) (h1 : (i 1).val = k.val) :
    (iblk m c 0 t : Vec Ideal S1024x1024 .f32) (ix2 p k) = V m c main_v0 i := by
  obtain ⟨e0, e1, -⟩ := idx_facts t
  unfold iblk
  rw [View.read_apply]
  show V m c main_v0 _ = V m c main_v0 i
  refine congrArg (V m c main_v0) (funext fun a => Fin.ext ?_)
  match a with
  | ⟨0, _⟩ => show win0_0.index t (0 : Fin 2) * 1024 + 1 * p.val = (i 0).val; rw [e0, h0]; omega
  | ⟨1, _⟩ => show win0_0.index t (1 : Fin 2) * 1024 + 1 * k.val = (i 1).val; rw [e1, h1]; omega

/-- The weight matrix is staged whole at every point. -/
theorem blk1_apply (c : Dev nD) (t : Fin cfg0.N) (l : Fin 4) (k : Fin 1024) :
    (iblk m c 1 t : Vec Ideal S4x1024 .f32) (ix2 l k) = V m c main_arg1 (ix2 l k) := by
  obtain ⟨-, -, e0, e1, -⟩ := idx_facts t
  unfold iblk
  rw [View.read_apply]
  show V m c main_arg1 _ = V m c main_arg1 (ix2 l k)
  refine congrArg (V m c main_arg1) (funext fun a => Fin.ext ?_)
  match a with
  | ⟨0, _⟩ => show win0_1.index t (0 : Fin 2) * 4 + 1 * l.val = l.val; rw [e0]; omega
  | ⟨1, _⟩ => show win0_1.index t (1 : Fin 2) * 1024 + 1 * k.val = k.val; rw [e1]; omega

/-- The bias matrix is staged whole at every point. -/
theorem blk2_apply (c : Dev nD) (t : Fin cfg0.N) (l : Fin 4) (k : Fin 1024) :
    (iblk m c 2 t : Vec Ideal S4x1024 .f32) (ix2 l k) = V m c main_arg2 (ix2 l k) := by
  obtain ⟨-, -, -, -, e0, e1, -⟩ := idx_facts t
  unfold iblk
  rw [View.read_apply]
  show V m c main_arg2 _ = V m c main_arg2 (ix2 l k)
  refine congrArg (V m c main_arg2) (funext fun a => Fin.ext ?_)
  match a with
  | ⟨0, _⟩ => show win0_2.index t (0 : Fin 2) * 4 + 1 * l.val = l.val; rw [e0]; omega
  | ⟨1, _⟩ => show win0_2.index t (1 : Fin 2) * 1024 + 1 * k.val = k.val; rw [e1]; omega

/-- The result array: the stack run on scalars, on every row of the flattened input as the region finds it. -/
abbrev result (c : Dev nD) : S16384x1024.Idx → EReal :=
  onRows stackSums (V m c main_v0) (V m c main_arg1) (V m c main_arg2)

/-- WHAT POINT `t` WRITES BACK is block `t` of `result`. -/
theorem flushed_eq (c : Dev nD) (t : Fin cfg0.N) :
    (dats m 0 c).flushed 3 t = ((cfg0.win 3).blk t).view.read (Elt Ideal) (result m c) := by
  rw [Value.flushed3]
  obtain ⟨-, -, -, -, -, -, e0, e1⟩ := idx_facts t
  have hN : cfg0.N = 16 := N_0
  have ht : t.val < 16 := hN ▸ t.isLt
  funext y
  obtain ⟨p, q, rfl⟩ : ∃ (p : Fin 1024) (q : Fin 1024), y = ix2 p q := ⟨y 0, y 1, eq_ix2 y⟩
  show out0_3 (iblk m c 0 t) (iblk m c 1 t) (iblk m c 2 t) (ix2 p q)
    = result m c (((cfg0.win 3).blk t).view.emb (ix2 p q))
  rw [out_apply (iblk m c 0 t) (iblk m c 1 t) (iblk m c 2 t) p q]
  have hp : t.val * 1024 + p.val < 16384 := by have := p.isLt; omega
  have hR : result m c (((cfg0.win 3).blk t).view.emb (ix2 p q))
      = stackSums (fun l k => V m c main_arg1 (ix2 l k)) (fun l k => V m c main_arg2 (ix2 l k))
          (fun k => V m c main_v0 (ix2 (⟨t.val * 1024 + p.val, hp⟩ : Fin 16384) k)) q := by
    refine onRows_apply stackSums _ _ _ _ _ q ?_ ?_
    · show win0_3.index t (0 : Fin 2) * 1024 + 1 * p.val = t.val * 1024 + p.val
      rw [e0]; omega
    · show win0_3.index t (1 : Fin 2) * 1024 + 1 * q.val = q.val
      rw [e1]; omega
  have a1 : (fun (l : Fin 4) (k : Fin 1024) => (iblk m c 1 t : Vec Ideal S4x1024 .f32) (ix2 l k))
      = fun l k => V m c main_arg1 (ix2 l k) := funext fun l => funext fun k => blk1_apply m c t l k
  have a2 : (fun (l : Fin 4) (k : Fin 1024) => (iblk m c 2 t : Vec Ideal S4x1024 .f32) (ix2 l k))
      = fun l k => V m c main_arg2 (ix2 l k) := funext fun l => funext fun k => blk2_apply m c t l k
  have a0 : (fun (k : Fin 1024) => (iblk m c 0 t : Vec Ideal S1024x1024 .f32) (ix2 p k))
      = fun k => V m c main_v0 (ix2 (⟨t.val * 1024 + p.val, hp⟩ : Fin 16384) k) :=
    funext fun k => blk0_apply m c t p k _ rfl rfl
  rw [hR, a1, a2, a0]

/-- An index of the result array is in point `t`'s block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- The 16 blocks tile the result array: row `r` is in the block of point `r / 1024`. -/
theorem cover (i : S16384x1024.Idx) :
    ∃ t : Fin cfg0.N, (cfg0.win 3).flush t = true ∧ i ∈ ((cfg0.win 3).blk t).view.set := by
  have hN : cfg0.N = 16 := N_0
  have hi0 : (i 0).val < 16384 := (i 0).isLt
  have hi1 : (i 1).val < 1024 := (i 1).isLt
  let t : Fin cfg0.N := ⟨(i 0).val / 1024, by rw [hN]; omega⟩
  obtain ⟨-, -, -, -, -, -, e0, e1⟩ := idx_facts t
  have e0' : win0_3.index t (0 : Fin 2) = (i 0).val / 1024 := e0
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0']; omega
  | ⟨1, _⟩ =>
    show win0_3.index t (1 : Fin 2) * 1024 ≤ (i 1).val ∧ (i 1).val < win0_3.index t (1 : Fin 2) * 1024 + 1024
    rw [e1]; omega

/-- THE ARRAY after the run, as a function of the arguments as launched. -/
theorem final (c : Dev nD) :
    (dats m 0 c).arrAt 3 cfg0.N
      = onRows stackSums
          (shapeCast S16384x1024 (m ((c : Thread nD τ).loc main_arg0)) shapeCasts_S16384x1x1024_S16384x1024)
          (m ((c : Thread nD τ).loc main_arg1)) (m ((c : Thread nD τ).loc main_arg2)) := by
  refine ((dats m 0 c).arrAt_eq_of_cover 3 (result m c) (fun t _ => flushed_eq m c t) cover).trans ?_
  show onRows stackSums (V m c main_v0) (V m c main_arg1) (V m c main_arg2) = _
  rw [V_main_v0, V_main_arg1, V_main_arg2]

/-- The run, read: the result array at the stack applied to every row of the flattened input, the arguments unchanged. -/
theorem run : θ_run defs (onTc (τ := τ) (main (F := Ideal))) ⟨m, fun _ => 0, ρ⟩ fun r => ∀ c : Dev nD,
      r.2.mem ((c : Thread nD τ).loc main_v1)
        = onRows stackSums
            (shapeCast S16384x1024 (m ((c : Thread nD τ).loc main_arg0)) shapeCasts_S16384x1x1024_S16384x1024)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRows.lean ====
/-
  The reference, one entry at a time.

  The reference runs the four layers as written: for each layer it sums the current rows, multiplies the sums into
  w_l ⊙ x (row l of the weight matrix laid along every row of the input), adds row l of the bias matrix and the input.
  Entry (p, q) of its result is the stack of four layers run on whole rows, for row p of the flattened input, at
  column q.
-/
import proofs.«127909_j20693152432611_2_alg».proof.Proof.Gen.ReferenceIdeal.Read
import proofs.«127909_j20693152432611_2_alg».proof.Proof.Law
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx Cert.CrossLayer

variable (x0 : (⟨S16384x1x1024, .f32⟩ : BufTy).Contents (Elt Ideal)) (x1 x2 : (⟨S4x1024, .f32⟩ : BufTy).Contents (Elt Ideal))

/-! ## Layer 0 -/

/-- Row 0 of the weight matrix laid along every row: entry `(p, q)` is `w (0, q)`. -/
theorem wrow0 (p : Fin 16384) (q : Fin 1024) : val_main_v6 (F := Ideal) x1 (ix2 p q) = x1 (ix2 (0 : Fin 4) q) := by
  rw [val_main_v6_apply, val_main_v5_apply, val_main_v4_apply, val_main_v3_apply]
  refine congrArg x1 (funext fun a => Fin.ext ?_)
  match a with
  | ⟨0, _⟩ => rfl
  | ⟨1, _⟩ => exact Nat.mod_eq_of_lt q.isLt

/-- Row 0 of the bias matrix laid along every row: entry `(p, q)` is `b (0, q)`. -/
theorem brow0 (p : Fin 16384) (q : Fin 1024) : val_main_v13 (F := Ideal) x2 (ix2 p q) = x2 (ix2 (0 : Fin 4) q) := by
  rw [val_main_v13_apply, val_main_v12_apply, val_main_v11_apply, val_main_v10_apply]
  refine congrArg x2 (funext fun a => Fin.ext ?_)
  match a with
  | ⟨0, _⟩ => rfl
  | ⟨1, _⟩ => exact Nat.mod_eq_of_lt q.isLt

/-- The sums of the rows entering layer 0, spread over the columns: entry `(p, q)` is the sum of row `p`. -/
theorem sum0 (p : Fin 16384) (q : Fin 1024) :
    val_main_v8 (F := Ideal) x0 (ix2 p q) = ∑ k : Fin 1024, val_main_v0 (F := Ideal) x0 (ix2 p k) := by
  rw [val_main_v8_apply, val_main_v2_apply, val_main_v1_apply, val_main_cst_apply, Ideal.ofBits_def,
    Ideal.ofBits_zero_f32, zero_add]
  refine Finset.sum_congr rfl fun k _ => congrArg _ (funext fun a => Fin.ext ?_)
  match a with
  | ⟨0, _⟩ => rfl
  | ⟨1, _⟩ => rfl

/-- Layer 0 at an entry. -/
theorem layer0 (p : Fin 16384) (q : Fin 1024) :
    val_main_v15 (F := Ideal) x0 x1 x2 (ix2 p q)
      = layer (∑ k : Fin 1024, val_main_v0 (F := Ideal) x0 (ix2 p k)) (fun k => x1 (ix2 (0 : Fin 4) k))
          (fun k => x2 (ix2 (0 : Fin 4) k)) (fun k => val_main_v0 (F := Ideal) x0 (ix2 p k)) q := by
  rw [val_main_v15_apply, val_main_v14_apply, val_main_v9_apply, val_main_v7_apply, sum0, wrow0, brow0]
  rfl

/-! ## Layer 1 -/

/-- Row 1 of the weight matrix laid along every row: entry `(p, q)` is `w (1, q)`. -/
theorem wrow1 (p : Fin 16384) (q : Fin 1024) : val_main_v21 (F := Ideal) x1 (ix2 p q) = x1 (ix2 (1 : Fin 4) q) := by
  rw [val_main_v21_apply, val_main_v20_apply, val_main_v19_apply, val_main_v18_apply]
  refine congrArg x1 (funext fun a => Fin.ext ?_)
  match a with
  | ⟨0, _⟩ => rfl
  | ⟨1, _⟩ => exact Nat.mod_eq_of_lt q.isLt

/-- Row 1 of the bias matrix laid along every row: entry `(p, q)` is `b (1, q)`. -/
theorem brow1 (p : Fin 16384) (q : Fin 1024) : val_main_v28 (F := Ideal) x2 (ix2 p q) = x2 (ix2 (1 : Fin 4) q) := by
  rw [val_main_v28_apply, val_main_v27_apply, val_main_v26_apply, val_main_v25_apply]
  refine congrArg x2 (funext fun a => Fin.ext ?_)
  match a with
  | ⟨0, _⟩ => rfl
  | ⟨1, _⟩ => exact Nat.mod_eq_of_lt q.isLt

/-- The sums of the rows entering layer 1, spread over the columns: entry `(p, q)` is the sum of row `p`. -/
theorem sum1 (p : Fin 16384) (q : Fin 1024) :
    val_main_v23 (F := Ideal) x0 x1 x2 (ix2 p q) = ∑ k : Fin 1024, val_main_v15 (F := Ideal) x0 x1 x2 (ix2 p k) := by
  rw [val_main_v23_apply, val_main_v17_apply, val_main_v16_apply, val_main_cst_0_apply, Ideal.ofBits_def,
    Ideal.ofBits_zero_f32, zero_add]
  refine Finset.sum_congr rfl fun k _ => congrArg _ (funext fun a => Fin.ext ?_)
  match a with
  | ⟨0, _⟩ => rfl
  | ⟨1, _⟩ => rfl

/-- Layer 1 at an entry. -/
theorem layer1 (p : Fin 16384) (q : Fin 1024) :
    val_main_v30 (F := Ideal) x0 x1 x2 (ix2 p q)
      = layer (∑ k : Fin 1024, val_main_v15 (F := Ideal) x0 x1 x2 (ix2 p k)) (fun k => x1 (ix2 (1 : Fin 4) k))
          (fun k => x2 (ix2 (1 : Fin 4) k)) (fun k => val_main_v0 (F := Ideal) x0 (ix2 p k)) q := by
  rw [val_main_v30_apply, val_main_v29_apply, val_main_v24_apply, val_main_v22_apply, sum1, wrow1, brow1]
  rfl

/-! ## Layer 2 -/

/-- Row 2 of the weight matrix laid along every row: entry `(p, q)` is `w (2, q)`. -/
theorem wrow2 (p : Fin 16384) (q : Fin 1024) : val_main_v36 (F := Ideal) x1 (ix2 p q) = x1 (ix2 (2 : Fin 4) q) := by
  rw [val_main_v36_apply, val_main_v35_apply, val_main_v34_apply, val_main_v33_apply]
  refine congrArg x1 (funext fun a => Fin.ext ?_)
  match a with
  | ⟨0, _⟩ => rfl
  | ⟨1, _⟩ => exact Nat.mod_eq_of_lt q.isLt

/-- Row 2 of the bias matrix laid along every row: entry `(p, q)` is `b (2, q)`. -/
theorem brow2 (p : Fin 16384) (q : Fin 1024) : val_main_v43 (F := Ideal) x2 (ix2 p q) = x2 (ix2 (2 : Fin 4) q) := by
  rw [val_main_v43_apply, val_main_v42_apply, val_main_v41_apply, val_main_v40_apply]
  refine congrArg x2 (funext fun a => Fin.ext ?_)
  match a with
  | ⟨0, _⟩ => rfl
  | ⟨1, _⟩ => exact Nat.mod_eq_of_lt q.isLt

/-- The sums of the rows entering layer 2, spread over the columns: entry `(p, q)` is the sum of row `p`. -/
theorem sum2 (p : Fin 16384) (q : Fin 1024) :
    val_main_v38 (F := Ideal) x0 x1 x2 (ix2 p q) = ∑ k : Fin 1024, val_main_v30 (F := Ideal) x0 x1 x2 (ix2 p k) := by
  rw [val_main_v38_apply, val_main_v32_apply, val_main_v31_apply, val_main_cst_1_apply, Ideal.ofBits_def,
    Ideal.ofBits_zero_f32, zero_add]
  refine Finset.sum_congr rfl fun k _ => congrArg _ (funext fun a => Fin.ext ?_)
  match a with
  | ⟨0, _⟩ => rfl
  | ⟨1, _⟩ => rfl

/-- Layer 2 at an entry. -/
theorem layer2 (p : Fin 16384) (q : Fin 1024) :
    val_main_v45 (F := Ideal) x0 x1 x2 (ix2 p q)
      = layer (∑ k : Fin 1024, val_main_v30 (F := Ideal) x0 x1 x2 (ix2 p k)) (fun k => x1 (ix2 (2 : Fin 4) k))
          (fun k => x2 (ix2 (2 : Fin 4) k)) (fun k => val_main_v0 (F := Ideal) x0 (ix2 p k)) q := by
  rw [val_main_v45_apply, val_main_v44_apply, val_main_v39_apply, val_main_v37_apply, sum2, wrow2, brow2]
  rfl

/-! ## Layer 3 -/

/-- Row 3 of the weight matrix laid along every row: entry `(p, q)` is `w (3, q)`. -/
theorem wrow3 (p : Fin 16384) (q : Fin 1024) : val_main_v51 (F := Ideal) x1 (ix2 p q) = x1 (ix2 (3 : Fin 4) q) := by
  rw [val_main_v51_apply, val_main_v50_apply, val_main_v49_apply, val_main_v48_apply]
  refine congrArg x1 (funext fun a => Fin.ext ?_)
  match a with
  | ⟨0, _⟩ => rfl
  | ⟨1, _⟩ => exact Nat.mod_eq_of_lt q.isLt

/-- Row 3 of the bias matrix laid along every row: entry `(p, q)` is `b (3, q)`. -/
theorem brow3 (p : Fin 16384) (q : Fin 1024) : val_main_v58 (F := Ideal) x2 (ix2 p q) = x2 (ix2 (3 : Fin 4) q) := by
  rw [val_main_v58_apply, val_main_v57_apply, val_main_v56_apply, val_main_v55_apply]
  refine congrArg x2 (funext fun a => Fin.ext ?_)
  match a with
  | ⟨0, _⟩ => rfl
  | ⟨1, _⟩ => exact Nat.mod_eq_of_lt q.isLt

/-- The sums of the rows entering layer 3, spread over the columns: entry `(p, q)` is the sum of row `p`. -/
theorem sum3 (p : Fin 16384) (q : Fin 1024) :
    val_main_v53 (F := Ideal) x0 x1 x2 (ix2 p q) = ∑ k : Fin 1024, val_main_v45 (F := Ideal) x0 x1 x2 (ix2 p k) := by
  rw [val_main_v53_apply, val_main_v47_apply, val_main_v46_apply, val_main_cst_2_apply, Ideal.ofBits_def,
    Ideal.ofBits_zero_f32, zero_add]
  refine Finset.sum_congr rfl fun k _ => congrArg _ (funext fun a => Fin.ext ?_)
  match a with
  | ⟨0, _⟩ => rfl
  | ⟨1, _⟩ => rfl

/-- Layer 3 at an entry. -/
theorem layer3 (p : Fin 16384) (q : Fin 1024) :
    val_main_v60 (F := Ideal) x0 x1 x2 (ix2 p q)
      = layer (∑ k : Fin 1024, val_main_v45 (F := Ideal) x0 x1 x2 (ix2 p k)) (fun k => x1 (ix2 (3 : Fin 4) k))
          (fun k => x2 (ix2 (3 : Fin 4) k)) (fun k => val_main_v0 (F := Ideal) x0 (ix2 p k)) q := by
  rw [val_main_v60_apply, val_main_v59_apply, val_main_v54_apply, val_main_v52_apply, sum3, wrow3, brow3]
  rfl

/-! ## The four layers -/

/-- THE REFERENCE AT AN ENTRY: the stack run on whole rows, on row `p` of the flattened input. -/
theorem result_apply (p : Fin 16384) (q : Fin 1024) :
    val_main_v60 (F := Ideal) x0 x1 x2 (ix2 p q)
      = stackRows (fun l k => x1 (ix2 l k)) (fun l k => x2 (ix2 l k)) (fun k => val_main_v0 (F := Ideal) x0 (ix2 p k)) q := by
  rw [layer3]
  simp only [layer2, layer1, layer0]
  rfl

end Cert.ReferenceIdeal.Rows

end
-- ==== Proof.Finite.lean ====
/-
  Finite inputs are real numbers.

  The precondition says of each of the three argument arrays that the absolute value of every entry is below +∞.
  Over the extended reals an entry whose absolute value max x (-x) is below +∞ is neither infinity, so it is a real
  number; this is what lets the distributive law be used on the entries.
-/
import proofs.«127909_j20693152432611_2_alg».proof.Pre_finite_inputs
import proofs.«127909_j20693152432611_2_alg».proof.Proof.LibRealValued
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Cert.Pre_finite_inputs Cert.RealValued

/-- The f32 word of +∞ denotes +∞. -/
theorem ofBits_inf : Ideal.ofBits .f32 0x7F800000#32 = (⊤ : EReal) := by
  simp [Ideal.ofBits, Ideal.ieee]

/-- An extended real whose absolute value is below +∞ is a real number. -/
theorem isReal_of_abs_lt (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

instance : Subsingleton S_.Idx := ⟨fun a b => funext fun d => d.elim0⟩

/-- Under the precondition every entry of the three argument arrays is a real number. -/
theorem real_of_pre [Facts] (a0 : FVec Ideal S16384x1x1024 .f32) (a1 a2 : FVec Ideal S4x1024 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h00, h1⟩ := IntOp.andi_eq_one.1 h01
  exact ⟨fun i => isReal_of_abs_lt _ (Host.reduce_andi_all _ _ _ _ _ h00 i),
    fun i => isReal_of_abs_lt _ (Host.reduce_andi_all _ _ _ _ _ h1 i),
    fun i => isReal_of_abs_lt _ (Host.reduce_andi_all _ _ _ _ _ h2 i)⟩

end Cert.Pre_finite_inputs.Finite

end
-- ==== Proof.lean ====
/-
  The cross layer kernel against its reference, over the extended reals.

  Both programs flatten the input to X : [16384, 1024] and push every row x of it through four layers; layer l sends
  the current row cur to  (Σ cur) · (w_l ⊙ x) + b_l + x  with w_l, b_l the l-th rows of the weight and bias matrices.
  The reference forms every layer's whole output row and sums it for the next layer.  The kernel, on blocks of 1024
  rows, never forms the intermediate rows: the sum of a layer's output is  s · Σ (w_l ⊙ x) + Σ b_l + Σ x  where s is
  the sum entering the layer, so it carries the three sums forward as scalars and applies the last layer alone entry by
  entry.  The two agree because s distributes over the sum — a law of the reals that fails at the infinities — so the
  precondition (every input entry finite, hence a real number) is used, once, to bring the reference's array to the
  kernel's.  The kernel's idealization rewrote nothing, so the preservation claim is empty.
-/
import proofs.«127909_j20693152432611_2_alg».proof.Defs
import proofs.«127909_j20693152432611_2_alg».proof.Proof.Gen.Kernel
import proofs.«127909_j20693152432611_2_alg».proof.Proof.Gen.Kernel.Skeleton
import proofs.«127909_j20693152432611_2_alg».proof.Proof.Gen.Kernel.Launch
import proofs.«127909_j20693152432611_2_alg».proof.Proof.Gen.Kernel.Points
import proofs.«127909_j20693152432611_2_alg».proof.Proof.Gen.Kernel.Frame
import proofs.«127909_j20693152432611_2_alg».proof.Proof.Gen.KernelIdeal
import proofs.«127909_j20693152432611_2_alg».proof.Proof.Gen.KernelIdeal.Skeleton
import proofs.«127909_j20693152432611_2_alg».proof.Proof.Gen.KernelIdeal.Launch
import proofs.«127909_j20693152432611_2_alg».proof.Proof.Gen.KernelIdeal.Points
import proofs.«127909_j20693152432611_2_alg».proof.Proof.Gen.KernelIdeal.Frame
import proofs.«127909_j20693152432611_2_alg».proof.Proof.Gen.ReferenceIdeal
import proofs.«127909_j20693152432611_2_alg».proof.Proof.Gen.Pre_finite_inputs
import proofs.«127909_j20693152432611_2_alg».proof.Proof.Gen.KernelIdeal.Value
import proofs.«127909_j20693152432611_2_alg».proof.Proof.Gen.ReferenceIdeal.Run
import proofs.«127909_j20693152432611_2_alg».proof.Proof.Gen.ReferenceIdeal.Read
import proofs.«127909_j20693152432611_2_alg».proof.Proof.Spec
import proofs.«127909_j20693152432611_2_alg».proof.Proof.KernelValue
import proofs.«127909_j20693152432611_2_alg».proof.Proof.RefRows
import proofs.«127909_j20693152432611_2_alg».proof.Proof.Finite
import Idealize.ShloMosaic.Adequacy
import Idealize.ShloMosaic.Init

noncomputable section

namespace Cert.Proof

open Idealize.ShloMosaic Idealize.ShloMosaic.ValueIdx Idealize.SL.Sem Cert.CrossLayer

/-- THE REFERENCE'S ARRAY: the stack run on whole rows, on every row of the flattened input. -/
theorem reference_eq (x0 : (⟨Cert.ReferenceIdeal.S16384x1x1024, .f32⟩ : BufTy).Contents (Elt Ideal))
    (x1 x2 : (⟨Cert.ReferenceIdeal.S4x1024, .f32⟩ : BufTy).Contents (Elt Ideal)) :
    Cert.ReferenceIdeal.Read.val_main_v60 (F := Ideal) x0 x1 x2
      = onRows stackRows (Cert.ReferenceIdeal.Read.val_main_v0 (F := Ideal) x0) x1 x2 := by
  funext i
  obtain ⟨p, q, rfl⟩ : ∃ (p : Fin 16384) (q : Fin 1024), i = ix2 p q := ⟨i 0, i 1, eq_ix2 i⟩
  rw [Cert.ReferenceIdeal.Rows.result_apply]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array is the stack on scalars applied to every row of the flattened input; the reference's is
    the stack on whole rows applied to the same rows; the inputs being real numbers, these are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v60_eq _ _ _).trans ?_
  rw [(hagree c).1, (hagree c).2.1, (hagree c).2.2, reference_eq]
  obtain ⟨h0, h1, h2⟩ := Cert.Pre_finite_inputs.Finite.real_of_pre _ _ _ (hpre c)
  exact onRows_law (fun i => h0 _) h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
